-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : FVec F S256x128 .f32) (main_arg2 : FVec F S128 .f32) (main_arg3 : FVec F S128x128 .f32) (main_arg4 : FVec F S128 .f32) (main_arg5 : FVec F S128x64 .f32) (main_arg6 : FVec F S64 .f32) (main_arg7 : IVec S2x1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S1650000x1, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1650000x1, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x128, .f32⟩
  | .hbm, ⟨78, _⟩ => ⟨S1650000x128, .f32⟩
  | .hbm, ⟨79, _⟩ => ⟨S1650000x128, .f32⟩
  | .hbm, ⟨80, _⟩ => ⟨S_, .f32⟩
  | .hbm, ⟨81, _⟩ => ⟨S50000x128, .f32⟩
  | .hbm, ⟨82, _⟩ => ⟨S1650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x64, .f32⟩
  | .hbm, ⟨87, _⟩ => ⟨S1650000x1, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000x64, .f32⟩
  | .hbm, ⟨97, _⟩ => ⟨S1650000x64, .f32⟩
  | .hbm, ⟨98, _⟩ => ⟨S1650000x64, .f32⟩
  | .hbm, ⟨99, _⟩ => ⟨S_, .f32⟩
  | .hbm, ⟨100, _⟩ => ⟨S50000x64, .f32⟩
  | .hbm, ⟨101, _⟩ => ⟨S1650000x1, .i32⟩
  | .hbm, ⟨102, _⟩ => ⟨S50000x64, .f32⟩
  | .hbm, ⟨103, _⟩ => ⟨S1x64, .f32⟩
  | .hbm, ⟨104, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S1650000x1, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1650000x1, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x128, .f32⟩
  | .hbm, ⟨83, _⟩ => ⟨S1650000x128, .f32⟩
  | .hbm, ⟨84, _⟩ => ⟨S_, .f32⟩
  | .hbm, ⟨85, _⟩ => ⟨S50000x128, .f32⟩
  | .hbm, ⟨86, _⟩ => ⟨S1650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S1650000x1, .f32⟩
  | .hbm, ⟨96, _⟩ => ⟨S_, .i32⟩
  | .hbm, ⟨97, _⟩ => ⟨S1650000, .i32⟩
  | .hbm, ⟨98, _⟩ => ⟨S1650000, .i1⟩
  | .hbm, ⟨99, _⟩ => ⟨S_, .i32⟩
  | .hbm, ⟨100, _⟩ => ⟨S1650000, .i32⟩
  | .hbm, ⟨101, _⟩ => ⟨S1650000, .i32⟩
  | .hbm, ⟨102, _⟩ => ⟨S1650000, .i32⟩
  | .hbm, ⟨103, _⟩ => ⟨S1650000x1, .i32⟩
  | .hbm, ⟨104, _⟩ => ⟨S1650000x64, .f32⟩
  | .hbm, ⟨105, _⟩ => ⟨S1650000x64, .f32⟩
  | .hbm, ⟨106, _⟩ => ⟨S1650000x64, .f32⟩
  | .hbm, ⟨107, _⟩ => ⟨S_, .f32⟩
  | .hbm, ⟨108, _⟩ => ⟨S50000x64, .f32⟩
  | .hbm, ⟨109, _⟩ => ⟨S1650000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KRun.lean ====
/-
  The idealized kernel program's run with its result array NAMED. The program is six kernel regions among stretches of
  host operations; its frame certificate folds the buffer contents through those twelve segments, from the launch
  memory to the contents `W12` at the return, and reads only the argument arrays off the last boundary. Here the same
  launch over the same segments is read at one more buffer: the result array, which ends holding what the fold leaves
  there, `W12 m ρ c main_v77`. What that is as a function of the arguments is the business of the later modules.
-/
import proofs.«167373_j22832046145851_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and every argument array ends as launched. -/
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Payload.lean ====
/-
  The six kernel bodies' arithmetic at the ideal instance, read at one index of the stored block.
  A matmul body rounds both loaded blocks to bf16 (the identity on extended reals) and multiplies them into a zero
  accumulator: entry (r, q) of the stored block is the sum over k of x[r, k] · w[k, q]. A bias body adds the one-row bias
  block to every row and, in the first two layers, takes the maximum with zero: entry (r, q) is max (a[r, q] + b[0, q]) 0,
  in the last layer a[r, q] + b[0, q].
-/
import proofs.«167373_j22832046145851_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-! ## The matmul body of region 0 -/

theorem mm0_lhs0 (i : S5000x128.Idx) (p : dot_S5000x256_S256x128_S5000x128_1_0_0_1_n_n.contr.Idx) : (dot_S5000x256_S256x128_S5000x128_1_0_0_1_n_n.lhsIdx i p 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem mm0_lhs1 (i : S5000x128.Idx) (p : dot_S5000x256_S256x128_S5000x128_1_0_0_1_n_n.contr.Idx) : (dot_S5000x256_S256x128_S5000x128_1_0_0_1_n_n.lhsIdx i p 1).val = (p ⟨0, by decide⟩).val :=
  dot_S5000x256_S256x128_S5000x128_1_0_0_1_n_n.lhsIdx_val_of_single rfl i p
theorem mm0_rhs0 (i : S5000x128.Idx) (p : dot_S5000x256_S256x128_S5000x128_1_0_0_1_n_n.contr.Idx) : (dot_S5000x256_S256x128_S5000x128_1_0_0_1_n_n.rhsIdx i p 0).val = (p ⟨0, by decide⟩).val :=
  dot_S5000x256_S256x128_S5000x128_1_0_0_1_n_n.rhsIdx_val_of_single rfl i p
theorem mm0_rhs1 (i : S5000x128.Idx) (p : dot_S5000x256_S256x128_S5000x128_1_0_0_1_n_n.contr.Idx) : (dot_S5000x256_S256x128_S5000x128_1_0_0_1_n_n.rhsIdx i p 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Layer 1's product: entry (r, q) of the stored block is the sum over the 256 contracted positions of x[r, k] · w[k, q]. -/
theorem mm0_apply (x : Vec Ideal S5000x256 .f32) (w : Vec Ideal S256x128 .f32) (r : Fin 5000) (q : Fin 128) :
    k0_pay1 (F := Ideal) x w (ix2 r q) = ∑ k : Fin 256, x (ix2 r k) * w (ix2 k q) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r q) ((contrEquiv1 dot_S5000x256_S256x128_S5000x128_1_0_0_1_n_n 256 rfl rfl).symm k) = ix2 r k := funext fun a => Fin.ext (by
    match a with
    | ⟨0, _⟩ => exact mm0_lhs0 _ _
    | ⟨1, _⟩ => exact (mm0_lhs1 _ _).trans hk)
  have er : dot_S5000x256_S256x128_S5000x128_1_0_0_1_n_n.rhsIdx (ix2 r q) ((contrEquiv1 dot_S5000x256_S256x128_S5000x128_1_0_0_1_n_n 256 rfl rfl).symm k) = ix2 k q := funext fun a => Fin.ext (by
    match a with
    | ⟨0, _⟩ => exact (mm0_rhs0 _ _).trans hk
    | ⟨1, _⟩ => exact mm0_rhs1 _ _)
  show x (dot_S5000x256_S256x128_S5000x128_1_0_0_1_n_n.lhsIdx (ix2 r q) _) * w (dot_S5000x256_S256x128_S5000x128_1_0_0_1_n_n.rhsIdx (ix2 r q) _) = _
  rw [el, er]

/-! ## The matmul body of region 2 -/

theorem mm2_lhs0 (i : S5000x128.Idx) (p : dot_S5000x128_S128x128_S5000x128_1_0_0_1_n_n.contr.Idx) : (dot_S5000x128_S128x128_S5000x128_1_0_0_1_n_n.lhsIdx i p 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm2_lhs1 (i : S5000x128.Idx) (p : dot_S5000x128_S128x128_S5000x128_1_0_0_1_n_n.contr.Idx) : (dot_S5000x128_S128x128_S5000x128_1_0_0_1_n_n.lhsIdx i p 1).val = (p ⟨0, by decide⟩).val :=
  dot_S5000x128_S128x128_S5000x128_1_0_0_1_n_n.lhsIdx_val_of_single rfl i p
theorem mm2_rhs0 (i : S5000x128.Idx) (p : dot_S5000x128_S128x128_S5000x128_1_0_0_1_n_n.contr.Idx) : (dot_S5000x128_S128x128_S5000x128_1_0_0_1_n_n.rhsIdx i p 0).val = (p ⟨0, by decide⟩).val :=
  dot_S5000x128_S128x128_S5000x128_1_0_0_1_n_n.rhsIdx_val_of_single rfl i p
theorem mm2_rhs1 (i : S5000x128.Idx) (p : dot_S5000x128_S128x128_S5000x128_1_0_0_1_n_n.contr.Idx) : (dot_S5000x128_S128x128_S5000x128_1_0_0_1_n_n.rhsIdx i p 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Layer 2's product: entry (r, q) of the stored block is the sum over the 128 contracted positions of x[r, k] · w[k, q]. -/
theorem mm2_apply (x : Vec Ideal S5000x128 .f32) (w : Vec Ideal S128x128 .f32) (r : Fin 5000) (q : Fin 128) :
    k2_pay1 (F := Ideal) x w (ix2 r q) = ∑ k : Fin 128, x (ix2 r k) * w (ix2 k q) := by
  unfold k2_pay1
  simp only [matmul, shapeCast_self]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact mm2_lhs0 _ _
    | ⟨1, _⟩ => exact (mm2_lhs1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (mm2_rhs0 _ _).trans hk
    | ⟨1, _⟩ => exact mm2_rhs1 _ _)
  show x (dot_S5000x128_S128x128_S5000x128_1_0_0_1_n_n.lhsIdx (ix2 r q) _) * w (dot_S5000x128_S128x128_S5000x128_1_0_0_1_n_n.rhsIdx (ix2 r q) _) = _
  rw [el, er]

/-! ## The matmul body of region 4 -/

theorem mm4_lhs0 (i : S5000x64.Idx) (p : dot_S5000x128_S128x64_S5000x64_1_0_0_1_n_n.contr.Idx) : (dot_S5000x128_S128x64_S5000x64_1_0_0_1_n_n.lhsIdx i p 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm4_lhs1 (i : S5000x64.Idx) (p : dot_S5000x128_S128x64_S5000x64_1_0_0_1_n_n.contr.Idx) : (dot_S5000x128_S128x64_S5000x64_1_0_0_1_n_n.lhsIdx i p 1).val = (p ⟨0, by decide⟩).val :=
  dot_S5000x128_S128x64_S5000x64_1_0_0_1_n_n.lhsIdx_val_of_single rfl i p
theorem mm4_rhs0 (i : S5000x64.Idx) (p : dot_S5000x128_S128x64_S5000x64_1_0_0_1_n_n.contr.Idx) : (dot_S5000x128_S128x64_S5000x64_1_0_0_1_n_n.rhsIdx i p 0).val = (p ⟨0, by decide⟩).val :=
  dot_S5000x128_S128x64_S5000x64_1_0_0_1_n_n.rhsIdx_val_of_single rfl i p
theorem mm4_rhs1 (i : S5000x64.Idx) (p : dot_S5000x128_S128x64_S5000x64_1_0_0_1_n_n.contr.Idx) : (dot_S5000x128_S128x64_S5000x64_1_0_0_1_n_n.rhsIdx i p 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Layer 3's product: entry (r, q) of the stored block is the sum over the 128 contracted positions of x[r, k] · w[k, q]. -/
theorem mm4_apply (x : Vec Ideal S5000x128 .f32) (w : Vec Ideal S128x64 .f32) (r : Fin 5000) (q : Fin 64) :
    k4_pay1 (F := Ideal) x w (ix2 r q) = ∑ k : Fin 128, x (ix2 r k) * w (ix2 k q) := by
  unfold k4_pay1
  simp only [matmul, shapeCast_self]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r q) ((contrEquiv1 dot_S5000x128_S128x64_S5000x64_1_0_0_1_n_n 128 rfl rfl).symm k) = ix2 r k := funext fun a => Fin.ext (by
    match a with
    | ⟨0, _⟩ => exact mm4_lhs0 _ _
    | ⟨1, _⟩ => exact (mm4_lhs1 _ _).trans hk)
  have er : dot_S5000x128_S128x64_S5000x64_1_0_0_1_n_n.rhsIdx (ix2 r q) ((contrEquiv1 dot_S5000x128_S128x64_S5000x64_1_0_0_1_n_n 128 rfl rfl).symm k) = ix2 k q := funext fun a => Fin.ext (by
    match a with
    | ⟨0, _⟩ => exact (mm4_rhs0 _ _).trans hk
    | ⟨1, _⟩ => exact mm4_rhs1 _ _)
  show x (dot_S5000x128_S128x64_S5000x64_1_0_0_1_n_n.lhsIdx (ix2 r q) _) * w (dot_S5000x128_S128x64_S5000x64_1_0_0_1_n_n.rhsIdx (ix2 r q) _) = _
  rw [el, er]

/-! ## The bias body of region 1 -/

/-- Entry (r, q) of the stored block: the aggregated entry plus the bias of column q, clipped below at zero. -/
theorem bias1_apply (a : Vec Ideal S5000x128 .f32) (b : Vec Ideal S1x128 .f32) (r : Fin 5000) (q : Fin 128) :
    k1_pay1 (F := Ideal) a b (ix2 r q) = max (a (ix2 r q) + b (ix2 0 q)) 0 := by
  unfold k1_pay1
  simp only [shapeCast_self]
  have hb : broadcastTo S5000x128 b broadcasts_S1x128_S5000x128 (ix2 r q) = b (ix2 0 q) :=
    broadcastTo_apply b broadcasts_S1x128_S5000x128 (ix2 r q) (ix2 0 q) (fun d => by
      match d with
      | ⟨0, _⟩ => rfl
      | ⟨1, _⟩ => rfl)
  show max (a (ix2 r q) + broadcastTo S5000x128 b broadcasts_S1x128_S5000x128 (ix2 r q)) (Ideal.ofBits .f32 0x00000000#32) = _
  rw [hb, Ideal.ofBits_zero_f32]

/-! ## The bias body of region 3 -/

/-- Entry (r, q) of the stored block: the aggregated entry plus the bias of column q, clipped below at zero. -/
theorem bias3_apply (a : Vec Ideal S5000x128 .f32) (b : Vec Ideal S1x128 .f32) (r : Fin 5000) (q : Fin 128) :
    k3_pay1 (F := Ideal) a b (ix2 r q) = max (a (ix2 r q) + b (ix2 0 q)) 0 := by
  unfold k3_pay1
  simp only [shapeCast_self]
  have hb : broadcastTo S5000x128 b broadcasts_S1x128_S5000x128 (ix2 r q) = b (ix2 0 q) :=
    broadcastTo_apply b broadcasts_S1x128_S5000x128 (ix2 r q) (ix2 0 q) (fun d => by
      match d with
      | ⟨0, _⟩ => rfl
      | ⟨1, _⟩ => rfl)
  show max (a (ix2 r q) + broadcastTo S5000x128 b broadcasts_S1x128_S5000x128 (ix2 r q)) (Ideal.ofBits .f32 0x00000000#32) = _
  rw [hb, Ideal.ofBits_zero_f32]

/-! ## The bias body of region 5 -/

/-- Entry (r, q) of the stored block: the aggregated entry plus the bias of column q. -/
theorem bias5_apply (a : Vec Ideal S5000x64 .f32) (b : Vec Ideal S1x64 .f32) (r : Fin 5000) (q : Fin 64) :
    k5_pay1 (F := Ideal) a b (ix2 r q) = a (ix2 r q) + b (ix2 0 q) := by
  unfold k5_pay1
  simp only [shapeCast_self]
  have hb : broadcastTo S5000x64 b broadcasts_S1x64_S5000x64 (ix2 r q) = b (ix2 0 q) :=
    broadcastTo_apply b broadcasts_S1x64_S5000x64 (ix2 r q) (ix2 0 q) (fun d => by
      match d with
      | ⟨0, _⟩ => rfl
      | ⟨1, _⟩ => rfl)
  show a (ix2 r q) + broadcastTo S5000x64 b broadcasts_S1x64_S5000x64 (ix2 r q) = _
  rw [hb]

end Cert.KernelIdeal.Body

end
-- ==== Proof.Blocks.lean ====
/-
  From blocks to arrays: what each kernel region leaves in its output array, as ONE function of the two arrays the region
  reads, for ANY contents `V` the region is entered with. Every region here has a grid of ten points; point t reads rows
  5000·t … 5000·t + 4999 of its first operand, the whole of its second operand, and writes the same rows of the output.
  The blocks tile the output array, so the array ends holding the body's function row block by row block, and since a
  row of the result depends only on the same row of the first operand, that is one function of the whole arrays:
  a matrix product, or a row-broadcast bias addition (clipped below at zero in the first two layers).
-/
import proofs.«167373_j22832046145851_1_alg».proof.Proof.Gen.KernelIdeal.Frame
import proofs.«167373_j22832046145851_1_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product of an [n, K] array with a [K, p] array, entry by entry, on the extended reals. -/
def prod {n K p : Nat} (x : (⟨2, ![n, K]⟩ : Shape).Idx → EReal) (w : (⟨2, ![K, p]⟩ : Shape).Idx → EReal) :
    (⟨2, ![n, p]⟩ : Shape).Idx → EReal :=
  fun i => ∑ k : Fin K, x (ix2 (i 0) k) * w (ix2 k (i 1))

/-- A one-row bias added to every row, then clipped below at zero. -/
def biasClip {n p : Nat} (a : (⟨2, ![n, p]⟩ : Shape).Idx → EReal) (b : (⟨2, ![1, p]⟩ : Shape).Idx → EReal) :
    (⟨2, ![n, p]⟩ : Shape).Idx → EReal :=
  fun i => max (a i + b (ix2 0 (i 1))) 0

/-- A one-row bias added to every row. -/
def biasAdd {n p : Nat} (a : (⟨2, ![n, p]⟩ : Shape).Idx → EReal) (b : (⟨2, ![1, p]⟩ : Shape).Idx → EReal) :
    (⟨2, ![n, p]⟩ : Shape).Idx → EReal :=
  fun i => a i + b (ix2 0 (i 1))

/-! ## Region 0: layer 1's product -/

/-- The printed index maps over the grid: point t's blocks are row block t of the first operand and of the output, and
    the whole second operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the product of the two arrays as the region finds them. -/
theorem flushed0 (c : Dev nD) (t : Fin cfg0.N) :
    (dat0 V c).flushed 2 t = ((cfg0.win 2).blk t).view.read (Elt Ideal)
      (prod (V c main_arg0 : S50000x256.Idx → EReal) (V c main_arg1 : S256x128.Idx → EReal)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts0 t
  funext j
  have hj0 : (j 0).val < 5000 := (j 0).isLt
  have hj1 : (j 1).val < 128 := (j 1).isLt
  show k0_pay1 (iblk0 V c 0 t) (iblk0 V c 1 t) ((win0 2).xinj (grid0.coords t) j)
    = prod (V c main_arg0 : S50000x256.Idx → EReal) (V c main_arg1 : S256x128.Idx → EReal) (((cfg0.win 2).blk t).view.emb j)
  have hx : (win0 2).xinj (grid0.coords t) j = ix2 (⟨(j 0).val, hj0⟩ : Fin 5000) (⟨(j 1).val, hj1⟩ : Fin 128) :=
    funext fun a => by match a with | ⟨0, _⟩ => rfl | ⟨1, _⟩ => rfl
  rw [hx]
  refine (Body.mm0_apply (iblk0 V c 0 t) (iblk0 V c 1 t) ⟨(j 0).val, hj0⟩ ⟨(j 1).val, hj1⟩).trans ?_
  unfold prod
  refine Finset.sum_congr rfl fun k _ => ?_
  have hl : iblk0 V c 0 t (ix2 (⟨(j 0).val, hj0⟩ : Fin 5000) k)
      = (V c main_arg0 : S50000x256.Idx → EReal) (ix2 ((((cfg0.win 2).blk t).view.emb j) 0) k) := by
    unfold iblk0
    rw [View.read_apply]
    refine congrArg (V c main_arg0 : S50000x256.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hr : iblk0 V c 1 t (ix2 k (⟨(j 1).val, hj1⟩ : Fin 128))
      = (V c main_arg1 : S256x128.Idx → EReal) (ix2 k ((((cfg0.win 2).blk t).view.emb j) 1)) := by
    unfold iblk0
    rw [View.read_apply]
    refine congrArg (V c main_arg1 : S256x128.Idx → EReal) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hl, hr]

/-- An index of the output array lies in point t's block iff its row lies in row block t. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks tile the output array: row r is in the block of point r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e0, e1, e2, e3, e4, e5⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]
    omega

/-- The region's output array ends holding the product of the two arrays it read. -/
theorem final0 (c : Dev nD) : (dat0 V c).arrAt 2 cfg0.N
    = prod (V c main_arg0 : S50000x256.Idx → EReal) (V c main_arg1 : S256x128.Idx → EReal) :=
  (dat0 V c).arrAt_eq_of_cover 2 _ (fun t _ => flushed0 V c t) cover0

/-! ## Region 1: layer 1's bias and clipping -/

/-- The printed index maps over the grid: point t's blocks are row block t of the aggregated array and of the output,
    and the one bias row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is row block t of the bias addition (clipped at zero) of the two arrays as the region finds them. -/
theorem flushed1 (c : Dev nD) (t : Fin cfg1.N) :
    (dat1 V c).flushed 2 t = ((cfg1.win 2).blk t).view.read (Elt Ideal)
      (biasClip (V c main_v43 : S50000x128.Idx → EReal) (V c main_v44 : S1x128.Idx → EReal)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts1 t
  funext j
  have hj0 : (j 0).val < 5000 := (j 0).isLt
  have hj1 : (j 1).val < 128 := (j 1).isLt
  show k1_pay1 (iblk1 V c 0 t) (iblk1 V c 1 t) ((win1 2).xinj (grid1.coords t) j)
    = biasClip (V c main_v43 : S50000x128.Idx → EReal) (V c main_v44 : S1x128.Idx → EReal) (((cfg1.win 2).blk t).view.emb j)
  have hx : (win1 2).xinj (grid1.coords t) j = ix2 (⟨(j 0).val, hj0⟩ : Fin 5000) (⟨(j 1).val, hj1⟩ : Fin 128) :=
    funext fun a => by match a with | ⟨0, _⟩ => rfl | ⟨1, _⟩ => rfl
  rw [hx]
  refine (Body.bias1_apply (iblk1 V c 0 t) (iblk1 V c 1 t) ⟨(j 0).val, hj0⟩ ⟨(j 1).val, hj1⟩).trans ?_
  unfold biasClip
  have hl : iblk1 V c 0 t (ix2 (⟨(j 0).val, hj0⟩ : Fin 5000) (⟨(j 1).val, hj1⟩ : Fin 128))
      = (V c main_v43 : S50000x128.Idx → EReal) (((cfg1.win 2).blk t).view.emb j) := by
    unfold iblk1
    rw [View.read_apply]
    refine congrArg (V c main_v43 : S50000x128.Idx → EReal) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hr : iblk1 V c 1 t (ix2 (0 : Fin 1) (⟨(j 1).val, hj1⟩ : Fin 128))
      = (V c main_v44 : S1x128.Idx → EReal) (ix2 (0 : Fin 1) ((((cfg1.win 2).blk t).view.emb j) 1)) := by
    unfold iblk1
    rw [View.read_apply]
    refine congrArg (V c main_v44 : S1x128.Idx → EReal) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [hl, hr]

/-- An index of the output array lies in point t's block iff its row lies in row block t. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten row blocks tile the output array: row r is in the block of point r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]
    omega

/-- The region's output array ends holding the bias addition (clipped at zero) of the two arrays it read. -/
theorem final1 (c : Dev nD) : (dat1 V c).arrAt 2 cfg1.N
    = biasClip (V c main_v43 : S50000x128.Idx → EReal) (V c main_v44 : S1x128.Idx → EReal) :=
  (dat1 V c).arrAt_eq_of_cover 2 _ (fun t _ => flushed1 V c t) cover1

/-! ## Region 2: layer 2's product -/

/-- The printed index maps over the grid: point t's blocks are row block t of the first operand and of the output, and
    the whole second operand. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is row block t of the product of the two arrays as the region finds them. -/
theorem flushed2 (c : Dev nD) (t : Fin cfg2.N) :
    (dat2 V c).flushed 2 t = ((cfg2.win 2).blk t).view.read (Elt Ideal)
      (prod (V c main_v45 : S50000x128.Idx → EReal) (V c main_arg3 : S128x128.Idx → EReal)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts2 t
  funext j
  have hj0 : (j 0).val < 5000 := (j 0).isLt
  have hj1 : (j 1).val < 128 := (j 1).isLt
  show k2_pay1 (iblk2 V c 0 t) (iblk2 V c 1 t) ((win2 2).xinj (grid2.coords t) j)
    = prod (V c main_v45 : S50000x128.Idx → EReal) (V c main_arg3 : S128x128.Idx → EReal) (((cfg2.win 2).blk t).view.emb j)
  have hx : (win2 2).xinj (grid2.coords t) j = ix2 (⟨(j 0).val, hj0⟩ : Fin 5000) (⟨(j 1).val, hj1⟩ : Fin 128) :=
    funext fun a => by match a with | ⟨0, _⟩ => rfl | ⟨1, _⟩ => rfl
  rw [hx]
  refine (Body.mm2_apply (iblk2 V c 0 t) (iblk2 V c 1 t) ⟨(j 0).val, hj0⟩ ⟨(j 1).val, hj1⟩).trans ?_
  unfold prod
  refine Finset.sum_congr rfl fun k _ => ?_
  have hl : iblk2 V c 0 t (ix2 (⟨(j 0).val, hj0⟩ : Fin 5000) k)
      = (V c main_v45 : S50000x128.Idx → EReal) (ix2 ((((cfg2.win 2).blk t).view.emb j) 0) k) := by
    unfold iblk2
    rw [View.read_apply]
    refine congrArg (V c main_v45 : S50000x128.Idx → EReal) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : iblk2 V c 1 t (ix2 k (⟨(j 1).val, hj1⟩ : Fin 128))
      = (V c main_arg3 : S128x128.Idx → EReal) (ix2 k ((((cfg2.win 2).blk t).view.emb j) 1)) := by
    unfold iblk2
    rw [View.read_apply]
    refine congrArg (V c main_arg3 : S128x128.Idx → EReal) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hl, hr]

/-- An index of the output array lies in point t's block iff its row lies in row block t. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The ten row blocks tile the output array: row r is in the block of point r / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e0, e1, e2, e3, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e5]
    omega

/-- The region's output array ends holding the product of the two arrays it read. -/
theorem final2 (c : Dev nD) : (dat2 V c).arrAt 2 cfg2.N
    = prod (V c main_v45 : S50000x128.Idx → EReal) (V c main_arg3 : S128x128.Idx → EReal) :=
  (dat2 V c).arrAt_eq_of_cover 2 _ (fun t _ => flushed2 V c t) cover2

/-! ## Region 3: layer 2's bias and clipping -/

/-- The printed index maps over the grid: point t's blocks are row block t of the aggregated array and of the output,
    and the one bias row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is row block t of the bias addition (clipped at zero) of the two arrays as the region finds them. -/
theorem flushed3 (c : Dev nD) (t : Fin cfg3.N) :
    (dat3 V c).flushed 2 t = ((cfg3.win 2).blk t).view.read (Elt Ideal)
      (biasClip (V c main_v59 : S50000x128.Idx → EReal) (V c main_v60 : S1x128.Idx → EReal)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts3 t
  funext j
  have hj0 : (j 0).val < 5000 := (j 0).isLt
  have hj1 : (j 1).val < 128 := (j 1).isLt
  show k3_pay1 (iblk3 V c 0 t) (iblk3 V c 1 t) ((win3 2).xinj (grid3.coords t) j)
    = biasClip (V c main_v59 : S50000x128.Idx → EReal) (V c main_v60 : S1x128.Idx → EReal) (((cfg3.win 2).blk t).view.emb j)
  have hx : (win3 2).xinj (grid3.coords t) j = ix2 (⟨(j 0).val, hj0⟩ : Fin 5000) (⟨(j 1).val, hj1⟩ : Fin 128) :=
    funext fun a => by match a with | ⟨0, _⟩ => rfl | ⟨1, _⟩ => rfl
  rw [hx]
  refine (Body.bias3_apply (iblk3 V c 0 t) (iblk3 V c 1 t) ⟨(j 0).val, hj0⟩ ⟨(j 1).val, hj1⟩).trans ?_
  unfold biasClip
  have hl : iblk3 V c 0 t (ix2 (⟨(j 0).val, hj0⟩ : Fin 5000) (⟨(j 1).val, hj1⟩ : Fin 128))
      = (V c main_v59 : S50000x128.Idx → EReal) (((cfg3.win 2).blk t).view.emb j) := by
    unfold iblk3
    rw [View.read_apply]
    refine congrArg (V c main_v59 : S50000x128.Idx → EReal) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have hr : iblk3 V c 1 t (ix2 (0 : Fin 1) (⟨(j 1).val, hj1⟩ : Fin 128))
      = (V c main_v60 : S1x128.Idx → EReal) (ix2 (0 : Fin 1) ((((cfg3.win 2).blk t).view.emb j) 1)) := by
    unfold iblk3
    rw [View.read_apply]
    refine congrArg (V c main_v60 : S1x128.Idx → EReal) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [hl, hr]

/-- An index of the output array lies in point t's block iff its row lies in row block t. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The ten row blocks tile the output array: row r is in the block of point r / 5000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e0, e1, e2, e3, e4, e5⟩ := idx_facts3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]
    omega

/-- The region's output array ends holding the bias addition (clipped at zero) of the two arrays it read. -/
theorem final3 (c : Dev nD) : (dat3 V c).arrAt 2 cfg3.N
    = biasClip (V c main_v59 : S50000x128.Idx → EReal) (V c main_v60 : S1x128.Idx → EReal) :=
  (dat3 V c).arrAt_eq_of_cover 2 _ (fun t _ => flushed3 V c t) cover3

/-! ## Region 4: layer 3's product -/

/-- The printed index maps over the grid: point t's blocks are row block t of the first operand and of the output, and
    the whole second operand. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is row block t of the product of the two arrays as the region finds them. -/
theorem flushed4 (c : Dev nD) (t : Fin cfg4.N) :
    (dat4 V c).flushed 2 t = ((cfg4.win 2).blk t).view.read (Elt Ideal)
      (prod (V c main_v61 : S50000x128.Idx → EReal) (V c main_arg5 : S128x64.Idx → EReal)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨e0, e1, e2, e3, e4, e5⟩ := idx_facts4 t
  funext j
  have hj0 : (j 0).val < 5000 := (j 0).isLt
  have hj1 : (j 1).val < 64 := (j 1).isLt
  show k4_pay1 (iblk4 V c 0 t) (iblk4 V c 1 t) ((win4 2).xinj (grid4.coords t) j)
    = prod (V c main_v61 : S50000x128.Idx → EReal) (V c main_arg5 : S128x64.Idx → EReal) (((cfg4.win 2).blk t).view.emb j)
  have hx : (win4 2).xinj (grid4.coords t) j = ix2 (⟨(j 0).val, hj0⟩ : Fin 5000) (⟨(j 1).val, hj1⟩ : Fin 64) :=
    funext fun a => by match a with | ⟨0, _⟩ => rfl | ⟨1, _⟩ => rfl
  rw [hx]
  refine (Body.mm4_apply (iblk4 V c 0 t) (iblk4 V c 1 t) ⟨(j 0).val, hj0⟩ ⟨(j 1).val, hj1⟩).trans ?_
  unfold prod
  refine Finset.sum_congr rfl fun k _ => ?_
  have hl : iblk4 V c 0 t (ix2 (⟨(j 0).val, hj0⟩ : Fin 5000) k)
      = (V c main_v61 : S50000x128.Idx → EReal) (ix2 ((((cfg4.win 2).blk t).view.emb j) 0) k) := by
    unfold iblk4
    rw [View.read_apply]
    refine congrArg (V c main_v61 : S50000x128.Idx → EReal) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hr : iblk4 V c 1 t (ix2 k (⟨(j 1).val, hj1⟩ : Fin 64))
      = (V c main_arg5 : S128x64.Idx → EReal) (ix2 k ((((cfg4.win 2).blk t).view.emb j) 1)) := by
    unfold iblk4
    rw [View.read_apply]
    refine congrArg (V c main_arg5 : S128x64.Idx → EReal) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  rw [hl, hr]

/-- An index of the output array lies in point t's block iff its row lies in row block t. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- The ten row blocks tile the output array: row r is in the block of point r / 5000. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨e0, e1, e2, e3, e4, e5⟩ := idx_facts4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win4_2.index ⟨(i 0).val / 5000, ht⟩ (1 : Fin 2) * 64 ≤ (i 1).val ∧ (i 1).val < win4_2.index ⟨(i 0).val / 5000, ht⟩ (1 : Fin 2) * 64 + 64
    rw [e5]
    omega

/-- The region's output array ends holding the product of the two arrays it read. -/
theorem final4 (c : Dev nD) : (dat4 V c).arrAt 2 cfg4.N
    = prod (V c main_v61 : S50000x128.Idx → EReal) (V c main_arg5 : S128x64.Idx → EReal) :=
  (dat4 V c).arrAt_eq_of_cover 2 _ (fun t _ => flushed4 V c t) cover4

/-! ## Region 5: layer 3's bias -/

/-- The printed index maps over the grid: point t's blocks are row block t of the aggregated array and of the output,
    and the one bias row. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is row block t of the bias addition of the two arrays as the region finds them. -/
theorem flushed5 (c : Dev nD) (t : Fin cfg5.N) :
    (dat5 V c).flushed 2 t = ((cfg5.win 2).blk t).view.read (Elt Ideal)
      (biasAdd (V c main_v75 : S50000x64.Idx → EReal) (V c main_v76 : S1x64.Idx → EReal)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts5 t
  funext j
  have hj0 : (j 0).val < 5000 := (j 0).isLt
  have hj1 : (j 1).val < 64 := (j 1).isLt
  show k5_pay1 (iblk5 V c 0 t) (iblk5 V c 1 t) ((win5 2).xinj (grid5.coords t) j)
    = biasAdd (V c main_v75 : S50000x64.Idx → EReal) (V c main_v76 : S1x64.Idx → EReal) (((cfg5.win 2).blk t).view.emb j)
  have hx : (win5 2).xinj (grid5.coords t) j = ix2 (⟨(j 0).val, hj0⟩ : Fin 5000) (⟨(j 1).val, hj1⟩ : Fin 64) :=
    funext fun a => by match a with | ⟨0, _⟩ => rfl | ⟨1, _⟩ => rfl
  rw [hx]
  refine (Body.bias5_apply (iblk5 V c 0 t) (iblk5 V c 1 t) ⟨(j 0).val, hj0⟩ ⟨(j 1).val, hj1⟩).trans ?_
  unfold biasAdd
  have hl : iblk5 V c 0 t (ix2 (⟨(j 0).val, hj0⟩ : Fin 5000) (⟨(j 1).val, hj1⟩ : Fin 64))
      = (V c main_v75 : S50000x64.Idx → EReal) (((cfg5.win 2).blk t).view.emb j) := by
    unfold iblk5
    rw [View.read_apply]
    refine congrArg (V c main_v75 : S50000x64.Idx → EReal) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have hr : iblk5 V c 1 t (ix2 (0 : Fin 1) (⟨(j 1).val, hj1⟩ : Fin 64))
      = (V c main_v76 : S1x64.Idx → EReal) (ix2 (0 : Fin 1) ((((cfg5.win 2).blk t).view.emb j) 1)) := by
    unfold iblk5
    rw [View.read_apply]
    refine congrArg (V c main_v76 : S1x64.Idx → EReal) (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [hl, hr]

/-- An index of the output array lies in point t's block iff its row lies in row block t. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- The ten row blocks tile the output array: row r is in the block of point r / 5000. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨e0, e1, e2, e3, e4, e5⟩ := idx_facts5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [e5]
    omega

/-- The region's output array ends holding the bias addition of the two arrays it read. -/
theorem final5 (c : Dev nD) : (dat5 V c).arrAt 2 cfg5.N
    = biasAdd (V c main_v75 : S50000x64.Idx → EReal) (V c main_v76 : S1x64.Idx → EReal) :=
  (dat5 V c).arrAt_eq_of_cover 2 _ (fun t _ => flushed5 V c t) cover5

end Cert.KernelIdeal.Blocks

end
-- ==== Proof.Carry.lean ====
/-
  Buffers that no later segment writes keep their contents. The program's host operations write each buffer once, and a
  kernel region writes only its own output array; so the edge lists, the normalisation weights and the argument arrays
  read at a later segment boundary are what they were when written, or at launch.
-/
import proofs.«167373_j22832046145851_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Carry

open Cert.KernelIdeal Cert.KernelIdeal.Gen

variable {F : FTy → Type} [FloatOps F]
variable (m : (ℓ : Loc nD τ sig) → Buf (Elt F) ℓ) (ρ : Dev nD → PrngReg)

/-! ## One segment back: a buffer the segment does not write -/

theorem step4_v3 (c : Dev nD) : W4 m ρ c (Proc.devRef .tc main_v3) = W3 m ρ c (Proc.devRef .tc main_v3) := W4_of_ne m ρ c main_v3 (by decide)

theorem step5_v3 (c : Dev nD) : W5 m ρ c (Proc.devRef .tc main_v3) = W4 m ρ c (Proc.devRef .tc main_v3) := by
  show StableHlo.after hostOps1 (W4 m ρ c) (Proc.devRef .tc main_v3) = _
  after_results

theorem step6_v3 (c : Dev nD) : W6 m ρ c (Proc.devRef .tc main_v3) = W5 m ρ c (Proc.devRef .tc main_v3) := W6_of_ne m ρ c main_v3 (by decide)

theorem step7_v3 (c : Dev nD) : W7 m ρ c (Proc.devRef .tc main_v3) = W6 m ρ c (Proc.devRef .tc main_v3) := W7_of_ne m ρ c main_v3 (by decide)

theorem step8_v3 (c : Dev nD) : W8 m ρ c (Proc.devRef .tc main_v3) = W7 m ρ c (Proc.devRef .tc main_v3) := by
  show StableHlo.after hostOps3 (W7 m ρ c) (Proc.devRef .tc main_v3) = _
  after_results

theorem step9_v3 (c : Dev nD) : W9 m ρ c (Proc.devRef .tc main_v3) = W8 m ρ c (Proc.devRef .tc main_v3) := W9_of_ne m ρ c main_v3 (by decide)

theorem step10_v3 (c : Dev nD) : W10 m ρ c (Proc.devRef .tc main_v3) = W9 m ρ c (Proc.devRef .tc main_v3) := W10_of_ne m ρ c main_v3 (by decide)

theorem step4_v6 (c : Dev nD) : W4 m ρ c (Proc.devRef .tc main_v6) = W3 m ρ c (Proc.devRef .tc main_v6) := W4_of_ne m ρ c main_v6 (by decide)

theorem step5_v6 (c : Dev nD) : W5 m ρ c (Proc.devRef .tc main_v6) = W4 m ρ c (Proc.devRef .tc main_v6) := by
  show StableHlo.after hostOps1 (W4 m ρ c) (Proc.devRef .tc main_v6) = _
  after_results

theorem step6_v6 (c : Dev nD) : W6 m ρ c (Proc.devRef .tc main_v6) = W5 m ρ c (Proc.devRef .tc main_v6) := W6_of_ne m ρ c main_v6 (by decide)

theorem step7_v6 (c : Dev nD) : W7 m ρ c (Proc.devRef .tc main_v6) = W6 m ρ c (Proc.devRef .tc main_v6) := W7_of_ne m ρ c main_v6 (by decide)

theorem step8_v6 (c : Dev nD) : W8 m ρ c (Proc.devRef .tc main_v6) = W7 m ρ c (Proc.devRef .tc main_v6) := by
  show StableHlo.after hostOps3 (W7 m ρ c) (Proc.devRef .tc main_v6) = _
  after_results

theorem step9_v6 (c : Dev nD) : W9 m ρ c (Proc.devRef .tc main_v6) = W8 m ρ c (Proc.devRef .tc main_v6) := W9_of_ne m ρ c main_v6 (by decide)

theorem step10_v6 (c : Dev nD) : W10 m ρ c (Proc.devRef .tc main_v6) = W9 m ρ c (Proc.devRef .tc main_v6) := W10_of_ne m ρ c main_v6 (by decide)

theorem step4_v29 (c : Dev nD) : W4 m ρ c (Proc.devRef .tc main_v29) = W3 m ρ c (Proc.devRef .tc main_v29) := W4_of_ne m ρ c main_v29 (by decide)

theorem step5_v29 (c : Dev nD) : W5 m ρ c (Proc.devRef .tc main_v29) = W4 m ρ c (Proc.devRef .tc main_v29) := by
  show StableHlo.after hostOps1 (W4 m ρ c) (Proc.devRef .tc main_v29) = _
  after_results

theorem step6_v29 (c : Dev nD) : W6 m ρ c (Proc.devRef .tc main_v29) = W5 m ρ c (Proc.devRef .tc main_v29) := W6_of_ne m ρ c main_v29 (by decide)

theorem step7_v29 (c : Dev nD) : W7 m ρ c (Proc.devRef .tc main_v29) = W6 m ρ c (Proc.devRef .tc main_v29) := W7_of_ne m ρ c main_v29 (by decide)

theorem step8_v29 (c : Dev nD) : W8 m ρ c (Proc.devRef .tc main_v29) = W7 m ρ c (Proc.devRef .tc main_v29) := by
  show StableHlo.after hostOps3 (W7 m ρ c) (Proc.devRef .tc main_v29) = _
  after_results

theorem step9_v29 (c : Dev nD) : W9 m ρ c (Proc.devRef .tc main_v29) = W8 m ρ c (Proc.devRef .tc main_v29) := W9_of_ne m ρ c main_v29 (by decide)

theorem step10_v29 (c : Dev nD) : W10 m ρ c (Proc.devRef .tc main_v29) = W9 m ρ c (Proc.devRef .tc main_v29) := W10_of_ne m ρ c main_v29 (by decide)

theorem step4_arg2 (c : Dev nD) : W4 m ρ c (Proc.devRef .tc main_arg2) = W3 m ρ c (Proc.devRef .tc main_arg2) := W4_of_ne m ρ c main_arg2 (by decide)

theorem step4_arg3 (c : Dev nD) : W4 m ρ c (Proc.devRef .tc main_arg3) = W3 m ρ c (Proc.devRef .tc main_arg3) := W4_of_ne m ρ c main_arg3 (by decide)

theorem step5_arg3 (c : Dev nD) : W5 m ρ c (Proc.devRef .tc main_arg3) = W4 m ρ c (Proc.devRef .tc main_arg3) := by
  show StableHlo.after hostOps1 (W4 m ρ c) (Proc.devRef .tc main_arg3) = _
  after_results

theorem step6_arg3 (c : Dev nD) : W6 m ρ c (Proc.devRef .tc main_arg3) = W5 m ρ c (Proc.devRef .tc main_arg3) := W6_of_ne m ρ c main_arg3 (by decide)

theorem step4_arg4 (c : Dev nD) : W4 m ρ c (Proc.devRef .tc main_arg4) = W3 m ρ c (Proc.devRef .tc main_arg4) := W4_of_ne m ρ c main_arg4 (by decide)

theorem step5_arg4 (c : Dev nD) : W5 m ρ c (Proc.devRef .tc main_arg4) = W4 m ρ c (Proc.devRef .tc main_arg4) := by
  show StableHlo.after hostOps1 (W4 m ρ c) (Proc.devRef .tc main_arg4) = _
  after_results

theorem step6_arg4 (c : Dev nD) : W6 m ρ c (Proc.devRef .tc main_arg4) = W5 m ρ c (Proc.devRef .tc main_arg4) := W6_of_ne m ρ c main_arg4 (by decide)

theorem step7_arg4 (c : Dev nD) : W7 m ρ c (Proc.devRef .tc main_arg4) = W6 m ρ c (Proc.devRef .tc main_arg4) := W7_of_ne m ρ c main_arg4 (by decide)

theorem step4_arg5 (c : Dev nD) : W4 m ρ c (Proc.devRef .tc main_arg5) = W3 m ρ c (Proc.devRef .tc main_arg5) := W4_of_ne m ρ c main_arg5 (by decide)

theorem step5_arg5 (c : Dev nD) : W5 m ρ c (Proc.devRef .tc main_arg5) = W4 m ρ c (Proc.devRef .tc main_arg5) := by
  show StableHlo.after hostOps1 (W4 m ρ c) (Proc.devRef .tc main_arg5) = _
  after_results

theorem step6_arg5 (c : Dev nD) : W6 m ρ c (Proc.devRef .tc main_arg5) = W5 m ρ c (Proc.devRef .tc main_arg5) := W6_of_ne m ρ c main_arg5 (by decide)

theorem step7_arg5 (c : Dev nD) : W7 m ρ c (Proc.devRef .tc main_arg5) = W6 m ρ c (Proc.devRef .tc main_arg5) := W7_of_ne m ρ c main_arg5 (by decide)

theorem step8_arg5 (c : Dev nD) : W8 m ρ c (Proc.devRef .tc main_arg5) = W7 m ρ c (Proc.devRef .tc main_arg5) := by
  show StableHlo.after hostOps3 (W7 m ρ c) (Proc.devRef .tc main_arg5) = _
  after_results

theorem step9_arg5 (c : Dev nD) : W9 m ρ c (Proc.devRef .tc main_arg5) = W8 m ρ c (Proc.devRef .tc main_arg5) := W9_of_ne m ρ c main_arg5 (by decide)

theorem step4_arg6 (c : Dev nD) : W4 m ρ c (Proc.devRef .tc main_arg6) = W3 m ρ c (Proc.devRef .tc main_arg6) := W4_of_ne m ρ c main_arg6 (by decide)

theorem step5_arg6 (c : Dev nD) : W5 m ρ c (Proc.devRef .tc main_arg6) = W4 m ρ c (Proc.devRef .tc main_arg6) := by
  show StableHlo.after hostOps1 (W4 m ρ c) (Proc.devRef .tc main_arg6) = _
  after_results

theorem step6_arg6 (c : Dev nD) : W6 m ρ c (Proc.devRef .tc main_arg6) = W5 m ρ c (Proc.devRef .tc main_arg6) := W6_of_ne m ρ c main_arg6 (by decide)

theorem step7_arg6 (c : Dev nD) : W7 m ρ c (Proc.devRef .tc main_arg6) = W6 m ρ c (Proc.devRef .tc main_arg6) := W7_of_ne m ρ c main_arg6 (by decide)

theorem step8_arg6 (c : Dev nD) : W8 m ρ c (Proc.devRef .tc main_arg6) = W7 m ρ c (Proc.devRef .tc main_arg6) := by
  show StableHlo.after hostOps3 (W7 m ρ c) (Proc.devRef .tc main_arg6) = _
  after_results

theorem step9_arg6 (c : Dev nD) : W9 m ρ c (Proc.devRef .tc main_arg6) = W8 m ρ c (Proc.devRef .tc main_arg6) := W9_of_ne m ρ c main_arg6 (by decide)

theorem step10_arg6 (c : Dev nD) : W10 m ρ c (Proc.devRef .tc main_arg6) = W9 m ρ c (Proc.devRef .tc main_arg6) := W10_of_ne m ρ c main_arg6 (by decide)

/-! ## The edge lists and the normalisation weights, as region 0 found them -/

theorem at4_v3 (c : Dev nD) : W4 m ρ c (Proc.devRef .tc main_v3) = W3 m ρ c (Proc.devRef .tc main_v3) :=
  step4_v3 m ρ c

theorem at7_v3 (c : Dev nD) : W7 m ρ c (Proc.devRef .tc main_v3) = W3 m ρ c (Proc.devRef .tc main_v3) :=
  (((step7_v3 m ρ c).trans (step6_v3 m ρ c)).trans (step5_v3 m ρ c)).trans (step4_v3 m ρ c)

theorem at10_v3 (c : Dev nD) : W10 m ρ c (Proc.devRef .tc main_v3) = W3 m ρ c (Proc.devRef .tc main_v3) :=
  ((((((step10_v3 m ρ c).trans (step9_v3 m ρ c)).trans (step8_v3 m ρ c)).trans (step7_v3 m ρ c)).trans (step6_v3 m ρ c)).trans (step5_v3 m ρ c)).trans (step4_v3 m ρ c)

theorem at4_v6 (c : Dev nD) : W4 m ρ c (Proc.devRef .tc main_v6) = W3 m ρ c (Proc.devRef .tc main_v6) :=
  step4_v6 m ρ c

theorem at7_v6 (c : Dev nD) : W7 m ρ c (Proc.devRef .tc main_v6) = W3 m ρ c (Proc.devRef .tc main_v6) :=
  (((step7_v6 m ρ c).trans (step6_v6 m ρ c)).trans (step5_v6 m ρ c)).trans (step4_v6 m ρ c)

theorem at10_v6 (c : Dev nD) : W10 m ρ c (Proc.devRef .tc main_v6) = W3 m ρ c (Proc.devRef .tc main_v6) :=
  ((((((step10_v6 m ρ c).trans (step9_v6 m ρ c)).trans (step8_v6 m ρ c)).trans (step7_v6 m ρ c)).trans (step6_v6 m ρ c)).trans (step5_v6 m ρ c)).trans (step4_v6 m ρ c)

theorem at4_v29 (c : Dev nD) : W4 m ρ c (Proc.devRef .tc main_v29) = W3 m ρ c (Proc.devRef .tc main_v29) :=
  step4_v29 m ρ c

theorem at7_v29 (c : Dev nD) : W7 m ρ c (Proc.devRef .tc main_v29) = W3 m ρ c (Proc.devRef .tc main_v29) :=
  (((step7_v29 m ρ c).trans (step6_v29 m ρ c)).trans (step5_v29 m ρ c)).trans (step4_v29 m ρ c)

theorem at10_v29 (c : Dev nD) : W10 m ρ c (Proc.devRef .tc main_v29) = W3 m ρ c (Proc.devRef .tc main_v29) :=
  ((((((step10_v29 m ρ c).trans (step9_v29 m ρ c)).trans (step8_v29 m ρ c)).trans (step7_v29 m ρ c)).trans (step6_v29 m ρ c)).trans (step5_v29 m ρ c)).trans (step4_v29 m ρ c)

/-! ## The argument arrays, as launched -/

theorem at3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem at3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results

theorem at3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem at3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem at3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

theorem at3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

theorem at3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

theorem at4_arg2 (c : Dev nD) : W4 m ρ c (Proc.devRef .tc main_arg2) = m ((c : Thread nD τ).loc main_arg2) :=
  (step4_arg2 m ρ c).trans (at3_arg2 m ρ c)

theorem at6_arg3 (c : Dev nD) : W6 m ρ c (Proc.devRef .tc main_arg3) = m ((c : Thread nD τ).loc main_arg3) :=
  (((step6_arg3 m ρ c).trans (step5_arg3 m ρ c)).trans (step4_arg3 m ρ c)).trans (at3_arg3 m ρ c)

theorem at7_arg4 (c : Dev nD) : W7 m ρ c (Proc.devRef .tc main_arg4) = m ((c : Thread nD τ).loc main_arg4) :=
  ((((step7_arg4 m ρ c).trans (step6_arg4 m ρ c)).trans (step5_arg4 m ρ c)).trans (step4_arg4 m ρ c)).trans (at3_arg4 m ρ c)

theorem at9_arg5 (c : Dev nD) : W9 m ρ c (Proc.devRef .tc main_arg5) = m ((c : Thread nD τ).loc main_arg5) :=
  ((((((step9_arg5 m ρ c).trans (step8_arg5 m ρ c)).trans (step7_arg5 m ρ c)).trans (step6_arg5 m ρ c)).trans (step5_arg5 m ρ c)).trans (step4_arg5 m ρ c)).trans (at3_arg5 m ρ c)

theorem at10_arg6 (c : Dev nD) : W10 m ρ c (Proc.devRef .tc main_arg6) = m ((c : Thread nD τ).loc main_arg6) :=
  (((((((step10_arg6 m ρ c).trans (step9_arg6 m ρ c)).trans (step8_arg6 m ρ c)).trans (step7_arg6 m ρ c)).trans (step6_arg6 m ρ c)).trans (step5_arg6 m ρ c)).trans (step4_arg6 m ρ c)).trans (at3_arg6 m ρ c)

end Cert.KernelIdeal.Carry

end
-- ==== Proof.HostRead.lean ====
/-
  The host operations of the kernel program read back, at any float instance. The two programs build the edge lists
  with their self-loops, the degrees, the normalisation factors and the edge weights by the same host operations, and
  between the kernel regions of a layer they gather the product's rows by source, scale them by the edge weights and
  add them up by target in the same way; so each of these buffers holds the reference's stage of the same name, given
  that the array a stage starts from does. Nothing here depends on what a float is.
-/
import proofs.«167373_j22832046145851_1_alg».proof.Proof.Gen.KernelIdeal.Frame
import proofs.«167373_j22832046145851_1_alg».proof.Proof.Carry
import proofs.«167373_j22832046145851_1_alg».proof.Proof.RefReadP
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostRead

open Cert.KernelIdeal Cert.KernelIdeal.Gen
open Cert.ReferenceIdeal.ReadP

variable {F : FTy → Type} [FloatOps F]
variable (m : (ℓ : Loc nD τ sig) → Buf (Elt F) ℓ) (ρ : Dev nD → PrngReg)

/-! ## Before the first region: the edge lists with self-loops and the edge weights -/

/-- Which nodes have a positive degree (with the self-loops, all of them; the programs test it all the same). -/
theorem positive1 (c : Dev nD) : W1 m ρ c (Proc.devRef .tc main_v12) = val_main_v12 (F := F) (m ((c : Thread nD τ).loc main_arg7)) := by
  show StableHlo.after hostOps0 (W0 m ρ c) (Proc.devRef .tc main_v12) = _
  after_results
  rfl

/-- The inverse square roots of the degrees. -/
theorem invsqrt1 (c : Dev nD) : W1 m ρ c (Proc.devRef .tc main_v13) = val_main_v13 (F := F) (m ((c : Thread nD τ).loc main_arg7)) := by
  show StableHlo.after hostOps0 (W0 m ρ c) (Proc.devRef .tc main_v13) = _
  after_results
  rfl

/-- The zero that stands in where a degree is not positive. -/
theorem zero1 (c : Dev nD) : W1 m ρ c (Proc.devRef .tc main_cst_2) = val_main_cst_2 (F := F) := by
  show StableHlo.after hostOps0 (W0 m ρ c) (Proc.devRef .tc main_cst_2) = _
  after_results
  rfl

/-- Each node's normalisation factor: the inverse square root of its degree where that is positive, zero elsewhere. -/
theorem factor2 (c : Dev nD) : W2 m ρ c (Proc.devRef .tc main_v14) = val_main_v14 (F := F) (m ((c : Thread nD τ).loc main_arg7)) := by
  have h12 := positive1 m ρ c
  have h13 := invsqrt1 m ρ c
  have hz := zero1 m ρ c
  show StableHlo.after hostOps0_1 (W1 m ρ c) (Proc.devRef .tc main_v14) = _
  generalize W1 m ρ c = X at h12 h13 hz ⊢
  after_results
  rw [h12, h13, hz]
  rfl

/-- The source list: the edges' sources followed by every node once. -/
theorem sources2 (c : Dev nD) : W2 m ρ c (Proc.devRef .tc main_v3) = val_main_v3 (F := F) (m ((c : Thread nD τ).loc main_arg7)) := by
  show StableHlo.after hostOps0_1 (StableHlo.after hostOps0 (W0 m ρ c)) (Proc.devRef .tc main_v3) = _
  after_results
  rfl

/-- The target list: the edges' targets followed by every node once. -/
theorem targets2 (c : Dev nD) : W2 m ρ c (Proc.devRef .tc main_v6) = val_main_v6 (F := F) (m ((c : Thread nD τ).loc main_arg7)) := by
  show StableHlo.after hostOps0_1 (StableHlo.after hostOps0 (W0 m ρ c)) (Proc.devRef .tc main_v6) = _
  after_results
  rfl

/-- The source list as region 0 finds it. -/
theorem sources (c : Dev nD) : W3 m ρ c (Proc.devRef .tc main_v3) = val_main_v3 (F := F) (m ((c : Thread nD τ).loc main_arg7)) := by
  show StableHlo.after hostOps0_2 (StableHlo.after hostOps0_1 (StableHlo.after hostOps0 (W0 m ρ c))) (Proc.devRef .tc main_v3) = _
  after_results
  rfl

/-- The target list as region 0 finds it. -/
theorem targets (c : Dev nD) : W3 m ρ c (Proc.devRef .tc main_v6) = val_main_v6 (F := F) (m ((c : Thread nD τ).loc main_arg7)) := by
  show StableHlo.after hostOps0_2 (StableHlo.after hostOps0_1 (StableHlo.after hostOps0 (W0 m ρ c))) (Proc.devRef .tc main_v6) = _
  after_results
  rfl

set_option maxHeartbeats 2000000 in
/-- The weight of each edge: its two end nodes' normalisation factors, multiplied. -/
theorem weights (c : Dev nD) : W3 m ρ c (Proc.devRef .tc main_v29) = val_main_v29 (F := F) (m ((c : Thread nD τ).loc main_arg7)) := by
  have h14 := factor2 m ρ c
  have h3 := sources2 m ρ c
  have h6 := targets2 m ρ c
  show StableHlo.after hostOps0_2 (W2 m ρ c) (Proc.devRef .tc main_v29) = _
  generalize W2 m ρ c = X at h14 h3 h6 ⊢
  after_results
  rw [h14, h3, h6]
  rfl

/-! ## Between a layer's two regions: gather by source, scale by the weights, add up by target; and the bias as one row -/

set_option maxHeartbeats 2000000 in
/-- Layer 1: from the product array to the aggregated array. -/
theorem aggregate1 (c : Dev nD) (hin : W4 m ρ c (Proc.devRef .tc main_v30) = val_main_v30 (F := F) (m ((c : Thread nD τ).loc main_arg0)) (m ((c : Thread nD τ).loc main_arg1))) :
    W5 m ρ c (Proc.devRef .tc main_v43) = val_main_v43 (F := F) (m ((c : Thread nD τ).loc main_arg0)) (m ((c : Thread nD τ).loc main_arg1)) (m ((c : Thread nD τ).loc main_arg7)) := by
  show StableHlo.after hostOps1 (W4 m ρ c) (Proc.devRef .tc main_v43) = _
  after_results_simp
  rw [hin, Carry.at4_v29 m ρ c, Carry.at4_v3 m ρ c, Carry.at4_v6 m ρ c, weights m ρ c, sources m ρ c, targets m ρ c]
  rfl

/-- The first bias vector as one row. -/
theorem biasRow1 (c : Dev nD) : W5 m ρ c (Proc.devRef .tc main_v44) = shapeCast S1x128 (m ((c : Thread nD τ).loc main_arg2)) shapeCasts_S128_S1x128 := by
  show StableHlo.after hostOps1 (W4 m ρ c) (Proc.devRef .tc main_v44) = _
  after_results
  rw [Carry.at4_arg2 m ρ c]
  rfl

set_option maxHeartbeats 2000000 in
/-- Layer 2: from the product array to the aggregated array. -/
theorem aggregate2 (c : Dev nD) (hin : W7 m ρ c (Proc.devRef .tc main_v46) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg7))) :
    W8 m ρ c (Proc.devRef .tc main_v59) = val_main_v61 (F := F) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps3 (W7 m ρ c) (Proc.devRef .tc main_v59) = _
  after_results_simp
  rw [hin, Carry.at7_v29 m ρ c, Carry.at7_v3 m ρ c, Carry.at7_v6 m ρ c, weights m ρ c, sources m ρ c, targets m ρ c]
  rfl

/-- The second bias vector as one row. -/
theorem biasRow2 (c : Dev nD) : W8 m ρ c (Proc.devRef .tc main_v60) = shapeCast S1x128 (m ((c : Thread nD τ).loc main_arg4)) shapeCasts_S128_S1x128 := by
  show StableHlo.after hostOps3 (W7 m ρ c) (Proc.devRef .tc main_v60) = _
  after_results
  rw [Carry.at7_arg4 m ρ c]
  rfl

set_option maxHeartbeats 2000000 in
/-- Layer 3: from the product array to the aggregated array. -/
theorem aggregate3 (c : Dev nD) (hin : W10 m ρ c (Proc.devRef .tc main_v62) = val_main_v66 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))) :
    W11 m ρ c (Proc.devRef .tc main_v75) = val_main_v79 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  show StableHlo.after hostOps5 (W10 m ρ c) (Proc.devRef .tc main_v75) = _
  after_results_simp
  rw [hin, Carry.at10_v29 m ρ c, Carry.at10_v3 m ρ c, Carry.at10_v6 m ρ c, weights m ρ c, sources m ρ c, targets m ρ c]
  rfl

/-- The third bias vector as one row. -/
theorem biasRow3 (c : Dev nD) : W11 m ρ c (Proc.devRef .tc main_v76) = shapeCast S1x64 (m ((c : Thread nD τ).loc main_arg6)) shapeCasts_S64_S1x64 := by
  show StableHlo.after hostOps5 (W10 m ρ c) (Proc.devRef .tc main_v76) = _
  after_results
  rw [Carry.at10_arg6 m ρ c]
  rfl

end Cert.KernelIdeal.HostRead

end
-- ==== Proof.RefStages.lean ====
/-
  The reference's dense stages at the ideal instance, in the forms the kernel regions compute. The reference multiplies
  whole arrays with `dot_general` (entry (r, q) is the sum over k of x[r, k] · w[k, q]) and adds each layer's bias by
  broadcasting the bias vector along the rows; the kernel program reshapes the bias vector to one row first. Entry by
  entry the two are the same: column q of the one-row array is entry q of the vector.
-/
import proofs.«167373_j22832046145851_1_alg».proof.Proof.RefReadP
import proofs.«167373_j22832046145851_1_alg».proof.Proof.Blocks

noncomputable section

open Idealize.ShloMosaic Idealize.ShloMosaic.ValueIdx

namespace Cert.ReferenceIdeal.Stages

open Cert.ReferenceIdeal Cert.ReferenceIdeal.ReadP
open Cert.KernelIdeal.Blocks (prod biasClip biasAdd)

variable (x0 : (⟨S50000x256, .f32⟩ : BufTy).Contents (Elt Ideal)) (x1 : (⟨S256x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S2x1600000, .i32⟩ : BufTy).Contents (Elt Ideal))

/-- Column q of a vector reshaped to one row is the vector's entry q. -/
theorem row_of_vec {p : Nat} (b : (⟨1, ![p]⟩ : Shape).Idx → EReal) (h : (⟨1, ![p]⟩ : Shape).ShapeCasts ⟨2, ![1, p]⟩) (q : Fin p) :
    shapeCast (⟨2, ![1, p]⟩ : Shape) b h (ix2 (0 : Fin 1) q) = b (ix1 q) :=
  (shapeCast_addUnit_apply ![p] b h (ix2 (0 : Fin 1) q)).trans
    (congrArg b (funext fun a => by match a with | ⟨0, _⟩ => rfl))

/-- Layer 1's `dot_general` is the product of the two argument arrays. -/
theorem prod1 : val_main_v30 (F := Ideal) x0 x1 = prod (n := 50000) (K := 256) (p := 128) x0 x1 := by
  funext i
  rw [val_main_v30_apply]
  unfold prod
  refine Finset.sum_congr rfl fun k _ => ?_
  have el : lidx_main_v30 i k = ix2 (i 0) k := funext fun a => by match a with | ⟨0, _⟩ => rfl | ⟨1, _⟩ => rfl
  have er : ridx_main_v30 i k = ix2 k (i 1) := funext fun a => by match a with | ⟨0, _⟩ => rfl | ⟨1, _⟩ => rfl
  rw [el, er] <;> rfl

/-- Layer 2's `dot_general` is the product of layer 1's activation with the second weight array. -/
theorem prod2 : val_main_v48 (F := Ideal) x0 x1 x2 x3 x7
    = prod (n := 50000) (K := 128) (p := 128) (val_main_v47 (F := Ideal) x0 x1 x2 x7) x3 := by
  funext i
  rw [val_main_v48_apply]
  unfold prod
  refine Finset.sum_congr rfl fun k _ => ?_
  have el : lidx_main_v48 i k = ix2 (i 0) k := funext fun a => by match a with | ⟨0, _⟩ => rfl | ⟨1, _⟩ => rfl
  have er : ridx_main_v48 i k = ix2 k (i 1) := funext fun a => by match a with | ⟨0, _⟩ => rfl | ⟨1, _⟩ => rfl
  rw [el, er] <;> rfl

/-- Layer 3's `dot_general` is the product of layer 2's activation with the third weight array. -/
theorem prod3 : val_main_v66 (F := Ideal) x0 x1 x2 x3 x4 x5 x7
    = prod (n := 50000) (K := 128) (p := 64) (val_main_v65 (F := Ideal) x0 x1 x2 x3 x4 x7) x5 := by
  funext i
  rw [val_main_v66_apply]
  unfold prod
  refine Finset.sum_congr rfl fun k _ => ?_
  have el : lidx_main_v66 i k = ix2 (i 0) k := funext fun a => by match a with | ⟨0, _⟩ => rfl | ⟨1, _⟩ => rfl
  have er : ridx_main_v66 i k = ix2 k (i 1) := funext fun a => by match a with | ⟨0, _⟩ => rfl | ⟨1, _⟩ => rfl
  rw [el, er] <;> rfl

/-- Layer 1's activation: the aggregated array plus the bias broadcast along the rows, clipped below at zero. -/
theorem act1 (h : S128.ShapeCasts S1x128) : val_main_v47 (F := Ideal) x0 x1 x2 x7
    = biasClip (n := 50000) (p := 128) (val_main_v43 (F := Ideal) x0 x1 x7) (shapeCast S1x128 x2 h) := by
  funext i
  have e : idx_main_v44 (idx_main_v45 i) = ix1 (i 1) := funext fun a => by match a with | ⟨0, _⟩ => rfl
  rw [val_main_v47_apply, val_main_v46_apply, val_main_call1_v0_apply, val_main_call1_cst_apply, val_main_v45_apply, val_main_v44_apply, e]
  unfold biasClip
  rw [row_of_vec (p := 128) x2 h (i 1)]
  show max (_ + x2 _) (Ideal.ofBits .f32 0x00000000#32) = max (_ + x2 _) 0
  rw [Ideal.ofBits_zero_f32] <;> rfl

/-- Layer 2's activation: the aggregated array plus the bias broadcast along the rows, clipped below at zero. -/
theorem act2 (h : S128.ShapeCasts S1x128) : val_main_v65 (F := Ideal) x0 x1 x2 x3 x4 x7
    = biasClip (n := 50000) (p := 128) (val_main_v61 (F := Ideal) x0 x1 x2 x3 x7) (shapeCast S1x128 x4 h) := by
  funext i
  have e : idx_main_v62 (idx_main_v63 i) = ix1 (i 1) := funext fun a => by match a with | ⟨0, _⟩ => rfl
  rw [val_main_v65_apply, val_main_v64_apply, val_main_call2_v0_apply, val_main_call2_cst_apply, val_main_v63_apply, val_main_v62_apply, e]
  unfold biasClip
  rw [row_of_vec (p := 128) x4 h (i 1)]
  show max (_ + x4 _) (Ideal.ofBits .f32 0x00000000#32) = max (_ + x4 _) 0
  rw [Ideal.ofBits_zero_f32] <;> rfl

/-- The result: layer 3's aggregated array plus the bias broadcast along the rows. -/
theorem out3 (h : S64.ShapeCasts S1x64) : val_main_v82 (F := Ideal) x0 x1 x2 x3 x4 x5 x6 x7
    = biasAdd (n := 50000) (p := 64) (val_main_v79 (F := Ideal) x0 x1 x2 x3 x4 x5 x7) (shapeCast S1x64 x6 h) := by
  funext i
  have e : idx_main_v80 (idx_main_v81 i) = ix1 (i 1) := funext fun a => by match a with | ⟨0, _⟩ => rfl
  rw [val_main_v82_apply, val_main_v81_apply, val_main_v80_apply, e]
  unfold biasAdd
  rw [row_of_vec (p := 64) x6 h (i 1)] <;> rfl

end Cert.ReferenceIdeal.Stages

end
-- ==== Proof.Chain.lean ====
/-
  The kernel program's dense steps at the ideal instance, boundary by boundary. Each layer is: a kernel region whose output
  array is the product of the layer's input with its weight array (the reference's `dot_general`, as sums at the ideal
  instance); the gather, scaling and scatter-add on the host, the same in both programs; and a kernel region whose output
  array is the aggregated array plus the bias row, clipped below at zero in the first two layers (the reference's
  broadcast addition and its maximum with zero). Going through the twelve segments in order, the result array ends
  holding the reference's result stage of the argument arrays.
-/
import proofs.«167373_j22832046145851_1_alg».proof.Proof.Gen.KernelIdeal.Frame
import proofs.«167373_j22832046145851_1_alg».proof.Proof.Blocks
import proofs.«167373_j22832046145851_1_alg».proof.Proof.Carry
import proofs.«167373_j22832046145851_1_alg».proof.Proof.HostRead
import proofs.«167373_j22832046145851_1_alg».proof.Proof.RefReadP
import proofs.«167373_j22832046145851_1_alg».proof.Proof.RefStages

set_option maxRecDepth 16384

noncomputable section

open Idealize.ShloMosaic Idealize.ShloMosaic.TcCoe Idealize.SL.Sem

namespace Cert.KernelIdeal.Chain

open Cert.KernelIdeal Cert.KernelIdeal.Gen
open Cert.ReferenceIdeal.ReadP

variable (m : (ℓ : Loc nD τ sig) → Buf (Elt Ideal) ℓ) (ρ : Dev nD → PrngReg)

/-! ## Layer 1 -/

/-- Region 0 leaves the product of the node features with the first weight array. -/
theorem product1 (c : Dev nD) : W4 m ρ c (Proc.devRef .tc main_v30) = val_main_v30 (F := Ideal) (m ((c : Thread nD τ).loc main_arg0)) (m ((c : Thread nD τ).loc main_arg1)) := by
  rw [Cert.ReferenceIdeal.Stages.prod1]
  refine (W4_arr m ρ c 2).trans ((Blocks.final0 (V3 m ρ) c).trans ?_)
  show Blocks.prod (W3 m ρ c (Proc.devRef .tc main_arg0)) (W3 m ρ c (Proc.devRef .tc main_arg1)) = _
  rw [Carry.at3_arg0 m ρ c, Carry.at3_arg1 m ρ c]

/-- Region 1 leaves layer 1's activation. -/
theorem activation1 (c : Dev nD) : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg7)) := by
  rw [Cert.ReferenceIdeal.Stages.act1 _ _ _ _ shapeCasts_S128_S1x128]
  refine (W6_arr m ρ c 2).trans ((Blocks.final1 (V5 m ρ) c).trans ?_)
  show Blocks.biasClip (W5 m ρ c (Proc.devRef .tc main_v43)) (W5 m ρ c (Proc.devRef .tc main_v44)) = _
  rw [HostRead.aggregate1 m ρ c (product1 m ρ c), HostRead.biasRow1 m ρ c]

/-! ## Layer 2 -/

/-- Region 2 leaves the product of layer 1's activation with the second weight array. -/
theorem product2 (c : Dev nD) : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  rw [Cert.ReferenceIdeal.Stages.prod2]
  refine (W7_arr m ρ c 2).trans ((Blocks.final2 (V6 m ρ) c).trans ?_)
  show Blocks.prod (W6 m ρ c (Proc.devRef .tc main_v45)) (W6 m ρ c (Proc.devRef .tc main_arg3)) = _
  rw [activation1 m ρ c, Carry.at6_arg3 m ρ c]

/-- Region 3 leaves layer 2's activation. -/
theorem activation2 (c : Dev nD) : W9 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  rw [Cert.ReferenceIdeal.Stages.act2 _ _ _ _ _ _ shapeCasts_S128_S1x128]
  refine (W9_arr m ρ c 2).trans ((Blocks.final3 (V8 m ρ) c).trans ?_)
  show Blocks.biasClip (W8 m ρ c (Proc.devRef .tc main_v59)) (W8 m ρ c (Proc.devRef .tc main_v60)) = _
  rw [HostRead.aggregate2 m ρ c (product2 m ρ c), HostRead.biasRow2 m ρ c]

/-! ## Layer 3 -/

/-- Region 4 leaves the product of layer 2's activation with the third weight array. -/
theorem product3 (c : Dev nD) : W10 m ρ c (Proc.devRef .tc main_v62) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  rw [Cert.ReferenceIdeal.Stages.prod3]
  refine (W10_arr m ρ c 2).trans ((Blocks.final4 (V9 m ρ) c).trans ?_)
  show Blocks.prod (W9 m ρ c (Proc.devRef .tc main_v61)) (W9 m ρ c (Proc.devRef .tc main_arg5)) = _
  rw [activation2 m ρ c, Carry.at9_arg5 m ρ c]

/-- Region 5 leaves the result: layer 3's aggregated array plus its bias. -/
theorem result (c : Dev nD) : W12 m ρ c (Proc.devRef .tc main_v77) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.ReferenceIdeal.Stages.out3 _ _ _ _ _ _ _ _ shapeCasts_S64_S1x64]
  refine (W12_arr m ρ c 2).trans ((Blocks.final5 (V11 m ρ) c).trans ?_)
  show Blocks.biasAdd (W11 m ρ c (Proc.devRef .tc main_v75)) (W11 m ρ c (Proc.devRef .tc main_v76)) = _
  rw [HostRead.aggregate3 m ρ c (product3 m ρ c), HostRead.biasRow3 m ρ c]

end Cert.KernelIdeal.Chain

end
-- ==== Proof.lean ====
/-
  The proof of `Cert.Claim` for a three-layer graph convolution: at each layer the node features are multiplied by a
  weight array, each edge carries its source's row scaled by the edge's normalisation weight to its target, where the rows
  are added up, and a bias is added (followed, in the first two layers, by a clip at zero).

  The kernel program does the two dense steps of every layer in tiled kernel regions, ten row blocks of 5000 nodes
  each, and leaves the edge lists, the degree normalisation, the gather and the scatter-add to the same host
  operations the reference uses. At the ideal instance a region's rounding of its operands to bf16 is the identity, its
  block products into a zero accumulator are the plain sums over the contracted axis, and a row of a product depends
  only on the same row of the left operand; so the ten row blocks of a region's output are the ten row blocks of ONE
  whole-array product — the reference's `dot_general` — and likewise the blockwise bias addition is the reference's
  broadcast addition (with the maximum against zero where the layer has one). No law of the extended reals beyond
  reading both sides as the same sums and sums of the same terms is used, and the precondition is never opened.

  Modules: Proof/Payload.lean (the six bodies' arithmetic at one index), Proof/Blocks.lean (from row blocks to whole
  arrays, for any contents a region is entered with), Proof/Carry.lean (buffers no later segment writes), Proof/KRun.lean
  (the kernel program's run with its result array named), Proof/HostRead.lean (the host
  operations the two programs share, read back at any float instance), Proof/RefStages.lean (the reference's dense stages in
  the same forms), Proof/Chain.lean (the segment boundaries one after the other, up to the result), and the claims below.
-/
import proofs.«167373_j22832046145851_1_alg».proof.Defs
import proofs.«167373_j22832046145851_1_alg».proof.Proof.Gen.Kernel
import proofs.«167373_j22832046145851_1_alg».proof.Proof.Gen.Kernel.Frame
import proofs.«167373_j22832046145851_1_alg».proof.Proof.Gen.KernelIdeal
import proofs.«167373_j22832046145851_1_alg».proof.Proof.Gen.KernelIdeal.Frame
import proofs.«167373_j22832046145851_1_alg».proof.Proof.Gen.ReferenceIdeal
import proofs.«167373_j22832046145851_1_alg».proof.Proof.Gen.Pre_finite_inputs
import proofs.«167373_j22832046145851_1_alg».proof.Proof.KRun
import proofs.«167373_j22832046145851_1_alg».proof.Proof.RefRunP
import proofs.«167373_j22832046145851_1_alg».proof.Proof.RefReadP
import proofs.«167373_j22832046145851_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- From memories agreeing on the arguments both programs end with the same result array: the kernel program's last
    segment boundary holds the reference's result stage of the arguments (`Chain.result`), which is the term the
    reference's run ends at. -/
theorem algebraic : Cert.algebraic_KernelIdeal_ReferenceIdeal := by
  intro m ρ m' ρ' _ hagree
  refine ⟨fun c => Cert.KernelIdeal.Gen.W12 m ρ c (Proc.devRef .tc Cert.KernelIdeal.main_v77), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v82_eq, h0, h1, h2, h3, h4, h5, h6, h7]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
